-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S16x2048x1024 : Shape := ⟨3, ![16, 2048, 1024]⟩
abbrev S16 : Shape := ⟨1, ![16]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn {F : FTy → Type} [FloatOps F] (main_arg0 : FVec F S16x2048 .f32) (main_arg1 : FVec F S16x2048x1024 .f32) (main_arg2 : FVec F S16x2048 .f32) (main_arg3 : IVec S16 32) : IVec S_ 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_c : IVec S_ 1 := constantI S_ 1 1#1
  let main_v3 : IVec S_ 1 := (fun x v => Host.reduce IntOp.andi x v reducesTo_S16x2048_S_d0_1 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S16x2048 .f32 := Host.absf main_arg2
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  main_v13
-- ==== Kernel.lean ====
abbrev S16x2048 : Shape := ⟨2, ![16, 2048]⟩
abbrev S16x2048x1024 : Shape := ⟨3, ![16, 2048, 1024]⟩
abbrev S16 : Shape := ⟨1, ![16]⟩
abbrev S16x1 : Shape := ⟨2, ![16, 1]⟩
abbrev S8x1024 : Shape := ⟨2, ![8, 1024]⟩
abbrev S8x1024x128 : Shape := ⟨3, ![8, 1024, 128]⟩
abbrev S8x1 : Shape := ⟨2, ![8, 1]⟩
abbrev S8x1024x1 : Shape := ⟨3, ![8, 1024, 1]⟩
abbrev S8 : Shape := ⟨1, ![8]⟩
abbrev S_ : Shape := ⟨0, ![]⟩
abbrev S2049 : Shape := ⟨1, ![2049]⟩
abbrev S1x2049 : Shape := ⟨2, ![1, 2049]⟩
abbrev S16x2049 : Shape := ⟨2, ![16, 2049]⟩

abbrev nBuf : Space → Nat
  | .hbm => 67
  | .vmem => 10
  | .smem => 0
  | _ => 0

abbrev bufTy : (tb : Table) → Fin (tcTables nBuf tb) → BufTy
  | .hbm, ⟨0, _⟩ => ⟨S16x2048, .f32⟩
  | .hbm, ⟨1, _⟩ => ⟨S16x2048x1024, .f32⟩
  | .hbm, ⟨2, _⟩ => ⟨S16x2048, .f32⟩
  | .hbm, ⟨3, _⟩ => ⟨S16, .i32⟩
  | .hbm, ⟨4, _⟩ => ⟨S16x1, .f32⟩
  | .hbm, ⟨5, _⟩ => ⟨S16x1, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S2049, .i32⟩
  | .hbm, ⟨17, _⟩ => ⟨S1x2049, .i32⟩
  | .hbm, ⟨18, _⟩ => ⟨S16x1, .i1⟩
  | .hbm, ⟨19, _⟩ => ⟨S16x1, .i32⟩
  | .hbm, ⟨20, _⟩ => ⟨S16x2049, .i32⟩
  | .hbm, ⟨21, _⟩ => ⟨S16x2049, .i32⟩
  | .hbm, ⟨22, _⟩ => ⟨S16x2049, .i1⟩
  | .hbm, ⟨23, _⟩ => ⟨S16x2049, .i1⟩
  | .hbm, ⟨24, _⟩ => ⟨S16x2049, .i1⟩
  | .hbm, ⟨25, _⟩ => ⟨S16, .i1⟩
  | .hbm, ⟨26, _⟩ => ⟨S16x1, .i1⟩
  | .hbm, ⟨27, _⟩ => ⟨S_, .i32⟩
  | .hbm, ⟨28, _⟩ => ⟨S1x2049, .i32⟩
  | .hbm, ⟨29, _⟩ => ⟨S1x2049, .i1⟩
  | .hbm, ⟨30, _⟩ => ⟨S16x2049, .i1⟩
  | .hbm, ⟨31, _⟩ => ⟨S16x2049, .i1⟩
  | .hbm, ⟨32, _⟩ => ⟨S16x2049, .i1⟩
  | .hbm, ⟨33, _⟩ => ⟨S16x1, .f32⟩
  | .hbm, ⟨34, _⟩ => ⟨S_, .f32⟩
  | .hbm, ⟨35, _⟩ => ⟨S_, .f32⟩
  | .hbm, ⟨36, _⟩ => ⟨S16x2049, .f32⟩
  | .hbm, ⟨37, _⟩ => ⟨S16x2049, .f32⟩
  | .hbm, ⟨38, _⟩ => ⟨S16x2049, .f32⟩
  | .hbm, ⟨39, _⟩ => ⟨S16x2049, .f32⟩
  | .hbm, ⟨40, _⟩ => ⟨S16x2049, .f32⟩
  | .hbm, ⟨41, _⟩ => ⟨S16x2049, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S16x1, .i32⟩
  | .hbm, ⟨48, _⟩ => ⟨S16x2049, .i32⟩
  | .hbm, ⟨49, _⟩ => ⟨S16x2049, .i32⟩
  | .hbm, ⟨50, _⟩ => ⟨S16x2049, .i1⟩
  | .hbm, ⟨51, _⟩ => ⟨S1x2049, .i32⟩
  | .hbm, ⟨52, _⟩ => ⟨S1x2049, .i1⟩
  | .hbm, ⟨53, _⟩ => ⟨S16x2049, .i1⟩
  | .hbm, ⟨54, _⟩ => ⟨S16x2049, .i1⟩
  | .hbm, ⟨55, _⟩ => ⟨S_, .f32⟩
  | .hbm, ⟨56, _⟩ => ⟨S16x2049, .f32⟩
  | .hbm, ⟨57, _⟩ => ⟨S16x2049, .f32⟩
  | .hbm, ⟨58, _⟩ => ⟨S16x2049, .f32⟩
  | .hbm, ⟨59, _⟩ => ⟨S16x2049, .f32⟩
  | .hbm, ⟨60, _⟩ => ⟨S16x2049, .f32⟩
  | .hbm, ⟨61, _⟩ => ⟨S_, .f32⟩
  | .hbm, ⟨62, _⟩ => ⟨S16, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S8x1024, .f32⟩
  | .local _ .vmem, ⟨1, _⟩ => ⟨S8x1024, .f32⟩
  | .local _ .vmem, ⟨2, _⟩ => ⟨S8x1024x128, .f32⟩
  | .local _ .vmem, ⟨3, _⟩ => ⟨S8x1024x128, .f32⟩
  | .local _ .vmem, ⟨4, _⟩ => ⟨S8x1024, .f32⟩
  | .local _ .vmem, ⟨5, _⟩ => ⟨S8x1024, .f32⟩
  | .local _ .vmem, ⟨6, _⟩ => ⟨S8x1, .f32⟩
  | .local _ .vmem, ⟨7, _⟩ => ⟨S8x1, .f32⟩
  | .local _ .vmem, ⟨8, _⟩ => ⟨S8x1, .f32⟩
  | .local _ .vmem, ⟨9, _⟩ => ⟨S8x1, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_cst_2 : Ref sig .tc := ⟨.hbm, 35, rfl⟩
abbrev main_call2_v0 : Ref sig .tc := ⟨.hbm, 36, rfl⟩
abbrev main_call2_v1 : Ref sig .tc := ⟨.hbm, 37, rfl⟩
abbrev main_v25 : Ref sig .tc := ⟨.hbm, 38, rfl⟩
abbrev main_call3_v0 : Ref sig .tc := ⟨.hbm, 39, rfl⟩
abbrev main_call3_v1 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x1_S8x1_0_0 : ∀ a, (![0, 0] : Fin 2 → Nat) a + S8x1.size a ≤ S8x1.size a
  h_S8x1 : 0 < S8x1.numel
  inb_S8x1024x128_S8x1024x1_0_0_0 : ∀ a, (![0, 0, 0] : Fin 3 → Nat) a + S8x1024x1.size a ≤ S8x1024x128.size a
  h_S8x1024x1 : 0 < S8x1024x1.numel
  shapeCasts_S8x1024x1_S8x1024 : S8x1024x1.ShapeCasts S8x1024
  natLt_1_32 : 1 < 32
  inb_S8x1024_S8x1024_0_0 : ∀ a, (![0, 0] : Fin 2 → Nat) a + S8x1024.size a ≤ S8x1024.size a
  h_S8x1024 : 0 < S8x1024.numel
  shapeCasts_S8x1_S8x1 : S8x1.ShapeCasts S8x1
  reduces_S8x1024_S8 : S8x1024.Reduces [1] S8
  shapeCasts_S8_S8x1 : S8.ShapeCasts S8x1
  shapeCasts_S16x1_S16 : S16x1.ShapeCasts S16
  bcast_S_S16 : S_.BroadcastsInDim S16 (![] : Fin 0 → Fin S16.rank)
  bcast_S2049_S1x2049_1 : S2049.BroadcastsInDim S1x2049 (![1] : Fin 1 → Fin S1x2049.rank)
  bcast_S16_S16x1_0 : S16.BroadcastsInDim S16x1 (![0] : Fin 1 → Fin S16x1.rank)
  bcast_S1x2049_S16x2049_0_1 : S1x2049.BroadcastsInDim S16x2049 (![0, 1] : Fin 2 → Fin S16x2049.rank)
  bcast_S16x1_S16x2049_0_1 : S16x1.BroadcastsInDim S16x2049 (![0, 1] : Fin 2 → Fin S16x2049.rank)
  bcast_S_S1x2049 : S_.BroadcastsInDim S1x2049 (![] : Fin 0 → Fin S1x2049.rank)
  bcast_S_S16x2049 : S_.BroadcastsInDim S16x2049 (![] : Fin 0 → Fin S16x2049.rank)
  reducesTo_S16_S_d0 : S16.ReducesTo [0] S_
  h_S_ : 0 < S_.numel
  reducesTo_S16x2049_S16_d1 : S16x2049.ReducesTo [1] S16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S16x2048.size a
  hwx0_0 : ∀ i : grid0.Coords, EltTy.bits .f32 = 32 ∨ (Rect.block (s := S16x2048) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x128.size a ≤ S16x2048x1024.size a
  hwx0_1 : ∀ i : grid0.Coords, EltTy.bits .f32 = 32 ∨ (Rect.block (s := S16x2048x1024) S8x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S16x2048.size a
  hwx0_2 : ∀ i : grid0.Coords, EltTy.bits .f32 = 32 ∨ (Rect.block (s := S16x2048) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S16x1.size a
  hwx0_3 : ∀ i : grid0.Coords, EltTy.bits .f32 = 32 ∨ (Rect.block (s := S16x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S16x1.size a
  hwx0_4 : ∀ i : grid0.Coords, EltTy.bits .f32 = 32 ∨ (Rect.block (s := S16x1) S8x1.size (cc0_transform_4 i) (hinb0_4 i)).WholeWords (EltTy.packing .f32)

variable [Facts₀]

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048 : Shape := ⟨2, ![16, 2048]⟩
abbrev S16x2048x1024 : Shape := ⟨3, ![16, 2048, 1024]⟩
abbrev S16 : Shape := ⟨1, ![16]⟩
abbrev S16x2048x1 : Shape := ⟨3, ![16, 2048, 1]⟩
abbrev S_ : Shape := ⟨0, ![]⟩
abbrev S2049 : Shape := ⟨1, ![2049]⟩
abbrev S1x2049 : Shape := ⟨2, ![1, 2049]⟩
abbrev S16x1 : Shape := ⟨2, ![16, 1]⟩
abbrev S16x2049 : Shape := ⟨2, ![16, 2049]⟩

abbrev nBuf : Space → Nat
  | .hbm => 80
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048x1024, .f32⟩
  | .hbm, ⟨2, _⟩ => ⟨S16x2048, .f32⟩
  | .hbm, ⟨3, _⟩ => ⟨S16, .i32⟩
  | .hbm, ⟨4, _⟩ => ⟨S16x2048x1, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .i1⟩
  | .hbm, ⟨12, _⟩ => ⟨S16x2048, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .i1⟩
  | .hbm, ⟨17, _⟩ => ⟨S16x2048, .i32⟩
  | .hbm, ⟨18, _⟩ => ⟨S_, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S_, .f32⟩
  | .hbm, ⟨24, _⟩ => ⟨S16, .f32⟩
  | .hbm, ⟨25, _⟩ => ⟨S_, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S2049, .i32⟩
  | .hbm, ⟨30, _⟩ => ⟨S1x2049, .i32⟩
  | .hbm, ⟨31, _⟩ => ⟨S16x1, .i1⟩
  | .hbm, ⟨32, _⟩ => ⟨S16x1, .i32⟩
  | .hbm, ⟨33, _⟩ => ⟨S16x2049, .i32⟩
  | .hbm, ⟨34, _⟩ => ⟨S16x2049, .i32⟩
  | .hbm, ⟨35, _⟩ => ⟨S16x2049, .i1⟩
  | .hbm, ⟨36, _⟩ => ⟨S16x2049, .i1⟩
  | .hbm, ⟨37, _⟩ => ⟨S16x2049, .i1⟩
  | .hbm, ⟨38, _⟩ => ⟨S16, .i1⟩
  | .hbm, ⟨39, _⟩ => ⟨S16x1, .i1⟩
  | .hbm, ⟨40, _⟩ => ⟨S_, .i32⟩
  | .hbm, ⟨41, _⟩ => ⟨S1x2049, .i32⟩
  | .hbm, ⟨42, _⟩ => ⟨S1x2049, .i1⟩
  | .hbm, ⟨43, _⟩ => ⟨S16x2049, .i1⟩
  | .hbm, ⟨44, _⟩ => ⟨S16x2049, .i1⟩
  | .hbm, ⟨45, _⟩ => ⟨S16x2049, .i1⟩
  | .hbm, ⟨46, _⟩ => ⟨S16x1, .f32⟩
  | .hbm, ⟨47, _⟩ => ⟨S_, .f32⟩
  | .hbm, ⟨48, _⟩ => ⟨S_, .f32⟩
  | .hbm, ⟨49, _⟩ => ⟨S16x2049, .f32⟩
  | .hbm, ⟨50, _⟩ => ⟨S16x2049, .f32⟩
  | .hbm, ⟨51, _⟩ => ⟨S16x2049, .f32⟩
  | .hbm, ⟨52, _⟩ => ⟨S16x2049, .f32⟩
  | .hbm, ⟨53, _⟩ => ⟨S16x2049, .f32⟩
  | .hbm, ⟨54, _⟩ => ⟨S16x2049, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S16x1, .i32⟩
  | .hbm, ⟨61, _⟩ => ⟨S16x2049, .i32⟩
  | .hbm, ⟨62, _⟩ => ⟨S16x2049, .i32⟩
  | .hbm, ⟨63, _⟩ => ⟨S16x2049, .i1⟩
  | .hbm, ⟨64, _⟩ => ⟨S1x2049, .i32⟩
  | .hbm, ⟨65, _⟩ => ⟨S1x2049, .i1⟩
  | .hbm, ⟨66, _⟩ => ⟨S16x2049, .i1⟩
  | .hbm, ⟨67, _⟩ => ⟨S16x2049, .i1⟩
  | .hbm, ⟨68, _⟩ => ⟨S_, .f32⟩
  | .hbm, ⟨69, _⟩ => ⟨S16x2049, .f32⟩
  | .hbm, ⟨70, _⟩ => ⟨S16x2049, .f32⟩
  | .hbm, ⟨71, _⟩ => ⟨S16x2049, .f32⟩
  | .hbm, ⟨72, _⟩ => ⟨S16x2049, .f32⟩
  | .hbm, ⟨73, _⟩ => ⟨S16x2049, .f32⟩
  | .hbm, ⟨74, _⟩ => ⟨S_, .f32⟩
  | .hbm, ⟨75, _⟩ => ⟨S16, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_v33 : Ref sig .tc := ⟨.hbm, 51, rfl⟩
abbrev main_call2_v0 : Ref sig .tc := ⟨.hbm, 52, rfl⟩
abbrev main_call2_v1 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  slices_S16x2048x1024_S16x2048x1_0_0_0 : S16x2048x1024.Slices ![0, 0, 0] S16x2048x1
  shapeCasts_S16x2048x1_S16x2048 : S16x2048x1.ShapeCasts S16x2048
  bcast_S_S16x2048 : S_.BroadcastsInDim S16x2048 (![] : Fin 0 → Fin S16x2048.rank)
  natLt_1_32 : 1 < 32
  reducesTo_S16x2048_S16_d1 : S16x2048.ReducesTo [1] S16
  h_S_ : 0 < S_.numel
  bcast_S_S16 : S_.BroadcastsInDim S16 (![] : Fin 0 → Fin S16.rank)
  bcast_S2049_S1x2049_1 : S2049.BroadcastsInDim S1x2049 (![1] : Fin 1 → Fin S1x2049.rank)
  bcast_S16_S16x1_0 : S16.BroadcastsInDim S16x1 (![0] : Fin 1 → Fin S16x1.rank)
  bcast_S1x2049_S16x2049_0_1 : S1x2049.BroadcastsInDim S16x2049 (![0, 1] : Fin 2 → Fin S16x2049.rank)
  bcast_S16x1_S16x2049_0_1 : S16x1.BroadcastsInDim S16x2049 (![0, 1] : Fin 2 → Fin S16x2049.rank)
  bcast_S_S1x2049 : S_.BroadcastsInDim S1x2049 (![] : Fin 0 → Fin S1x2049.rank)
  bcast_S_S16x2049 : S_.BroadcastsInDim S16x2049 (![] : Fin 0 → Fin S16x2049.rank)
  reducesTo_S16_S_d0 : S16.ReducesTo [0] S_
  reducesTo_S16x2049_S16_d1 : S16x2049.ReducesTo [1] S16

variable [Facts₀]

class Facts : Prop extends Facts₀ where

variable [Facts]
-- ==== Proof.SharedTail.lean ====
/-
  The part of the computation that both programs share, as one function.

  Both programs end with the same host computation on three vectors of length 16: the per-row spike count
  `n` (a 32-bit integer), the per-row sum `rs` of alpha, and the text lengths `tl`.  With
  `has b = (n b ≥ 1)` and `len b = if has b then n b else 1`, the boundary row `b` of width 2049 holds
  `rs b` at the columns `j < n b` when `has b`, holds 1 at column 0 when not `has b`, and 0 elsewhere;
  the columns kept are those with `j < tl b` and `j < min (max_b len b) (max_b tl b)`; the result is the sum
  over rows and kept columns of `|boundary - 1|`, divided by 16.

  The function is never opened: the two programs' results are this function applied to their own
  `n` and `rs`, and the certificate shows that those agree.
-/
import proofs.«130598_j90297392431840_2_alg».proof.Proof.Gen.ReferenceIdeal
import Idealize.ShloMosaic.PureOps.Ideal

noncomputable section

namespace Cert.Shared

open Cert.ReferenceIdeal Cert.ReferenceIdeal.Gen Idealize.ShloMosaic Idealize.ShloMosaic.TcCoe Idealize.SL.Sem Idealize.ShloMosaic.StableHlo

variable {F : FTy → Type} [FloatOps F]

/-- The boundary loss from the per-row count `n`, the per-row sum `rs` and the text lengths `tl`. -/
def boundaryLoss (n : (⟨S16, .i32⟩ : BufTy).Contents (Elt F)) (rs : (⟨S16, .f32⟩ : BufTy).Contents (Elt F))
    (tl : (⟨S16, .i32⟩ : BufTy).Contents (Elt F)) : (⟨S_, .f32⟩ : BufTy).Contents (Elt F) :=
  Host.divf (Host.reduceAdd (Host.reduceAdd (mulf (Host.absf (subf (select (andi (broadcastInDim S16x2049 ![0, 1] bcast_S16x1_S16x2049_0_1 (broadcastInDim S16x1 ![0] bcast_S16_S16x1_0 (cmpi .sge n (broadcastInDim S16 ![] bcast_S_S16 (constantI S_ 32 1#32))))) (cmpi .slt (broadcastInDim S16x2049 ![0, 1] bcast_S1x2049_S16x2049_0_1 (broadcastInDim S1x2049 ![1] bcast_S2049_S1x2049_1 (iotaInDim S2049 32 0))) (broadcastInDim S16x2049 ![0, 1] bcast_S16x1_S16x2049_0_1 (broadcastInDim S16x1 ![0] bcast_S16_S16x1_0 n)))) (broadcastInDim S16x2049 ![0, 1] bcast_S16x1_S16x2049_0_1 (broadcastInDim S16x1 ![0] bcast_S16_S16x1_0 rs)) (id (select (andi (broadcastInDim S16x2049 ![0, 1] bcast_S16x1_S16x2049_0_1 (broadcastInDim S16x1 ![0] bcast_S16_S16x1_0 (noti (cmpi .sge n (broadcastInDim S16 ![] bcast_S_S16 (constantI S_ 32 1#32)))))) (broadcastInDim S16x2049 ![0, 1] bcast_S1x2049_S16x2049_0_1 (cmpi .eq (broadcastInDim S1x2049 ![1] bcast_S2049_S1x2049_1 (iotaInDim S2049 32 0)) (broadcastInDim S1x2049 ![] bcast_S_S1x2049 (constantI S_ 32 0#32))))) (broadcastInDim S16x2049 ![] bcast_S_S16x2049 (constant S_ .f32 0x3F800000#32)) (broadcastInDim S16x2049 ![] bcast_S_S16x2049 (constant S_ .f32 0x00000000#32))))) (broadcastInDim S16x2049 ![] bcast_S_S16x2049 (constant S_ .f32 0x3F800000#32)))) (uitofp .f32 (andi (cmpi .slt (broadcastInDim S16x2049 ![0, 1] bcast_S1x2049_S16x2049_0_1 (broadcastInDim S1x2049 ![1] bcast_S2049_S1x2049_1 (iotaInDim S2049 32 0))) (broadcastInDim S16x2049 ![0, 1] bcast_S16x1_S16x2049_0_1 (broadcastInDim S16x1 ![0] bcast_S16_S16x1_0 tl))) (broadcastInDim S16x2049 ![0, 1] bcast_S1x2049_S16x2049_0_1 (cmpi .slt (broadcastInDim S1x2049 ![1] bcast_S2049_S1x2049_1 (iotaInDim S2049 32 0)) (broadcastInDim S1x2049 ![] bcast_S_S1x2049 (minsi (Host.reduce IntOp.maxsi (select (cmpi .sge n (broadcastInDim S16 ![] bcast_S_S16 (constantI S_ 32 1#32))) n (broadcastInDim S16 ![] bcast_S_S16 (id (constantI S_ 32 1#32)))) (constantI S_ 32 2147483648#32) reducesTo_S16_S_d0 h_S_) (Host.reduce IntOp.maxsi tl (constantI S_ 32 2147483648#32) reducesTo_S16_S_d0 h_S_)))))))) (constant S_ .f32 0x00000000#32) reducesTo_S16x2049_S16_d1 h_S_) (constant S_ .f32 0x00000000#32) reducesTo_S16_S_d0 h_S_) (constant S_ .f32 0x41800000#32)

end Cert.Shared

end
-- ==== Proof.Spec.lean ====
/-
  The quantities the two programs compute before their shared tail, as plain functions of the argument
  arrays over the extended reals.

  For a row `r` and a frame `k`: the frame `triggers` when `1 - logp[r, k, 0]` exceeds the threshold
  (the float nearest to log 3); its spike value is the trigger (1 or 0) times `mask[r, k]`; the frame
  is counted when the spike value is not zero.  `count r` is the number of counted frames of row `r`,
  `rowSum r` the sum of `alpha[r, ·]`.
-/
import Idealize.ShloMosaic.Lib.ValueIdx

noncomputable section

namespace Cert.Spec

open Idealize.ShloMosaic Idealize.ShloMosaic.ValueIdx

/-- The constants of the body, as the extended reals their f32 patterns denote. -/
abbrev one : EReal := Ideal.ofBits .f32 0x3F800000#32
abbrev thr : EReal := Ideal.ofBits .f32 0x3F8C9F54#32
abbrev zero : EReal := Ideal.ofBits .f32 0x00000000#32

/-- Frame `k` of row `r` triggers: `1 - logp[r, k, 0] > thr`. -/
def trig (logp : (⟨3, ![16, 2048, 1024]⟩ : Shape).Idx → EReal) (r : Fin 16) (k : Fin 2048) : BitVec 1 :=
  Ideal.cmp .ogt (one - logp (ix3 r k 0)) thr

/-- Frame `k` of row `r` is counted: trigger (as 1 or 0) times the mask is not zero. -/
def spike (logp : (⟨3, ![16, 2048, 1024]⟩ : Shape).Idx → EReal) (mask : (⟨2, ![16, 2048]⟩ : Shape).Idx → EReal)
    (r : Fin 16) (k : Fin 2048) : BitVec 1 :=
  Ideal.cmp .one ((((trig logp r k).toNat : ℝ) : EReal) * mask (ix2 r k)) zero

/-- The number of counted frames of row `r`. -/
def count (logp : (⟨3, ![16, 2048, 1024]⟩ : Shape).Idx → EReal) (mask : (⟨2, ![16, 2048]⟩ : Shape).Idx → EReal)
    (r : Fin 16) : ℕ :=
  (Finset.univ.filter fun k : Fin 2048 => spike logp mask r k = 1#1).card

/-- A row has 2048 frames, so its count is far below 2^31. -/
theorem count_lt (logp : (⟨3, ![16, 2048, 1024]⟩ : Shape).Idx → EReal) (mask : (⟨2, ![16, 2048]⟩ : Shape).Idx → EReal)
    (r : Fin 16) : count logp mask r < 2 ^ 31 := by
  have h : count logp mask r ≤ (Finset.univ : Finset (Fin 2048)).card := Finset.card_filter_le _ _
  rw [Finset.card_univ, Fintype.card_fin] at h
  omega

/-- The sum of row `r` of alpha. -/
def rowSum (alpha : (⟨2, ![16, 2048]⟩ : Shape).Idx → EReal) (r : Fin 16) : EReal :=
  ∑ k : Fin 2048, alpha (ix2 r k)

end Cert.Spec

end
-- ==== Proof.RefStages.lean ====
/-
  The reference, read at the ideal instance.

  Its result is the shared boundary loss applied to its own per-row count and per-row sum.  The count is an
  integer sum over the 2048 frames of a row of the counted-frame indicator widened to 32 bits, so it is the
  32-bit word of the number of counted frames; the row sum is the initial zero plus the sum of the row.
  The indicator at frame `k` of row `r` reads `logp[r, k, 0]` (a slice of the last axis reshaped away),
  and its two comparisons are the order's `>` and `≠` on the extended reals.
-/
import proofs.«130598_j90297392431840_2_alg».proof.Proof.RefRunPatched
import proofs.«130598_j90297392431840_2_alg».proof.Proof.SharedTail
import proofs.«130598_j90297392431840_2_alg».proof.Proof.Spec
import Idealize.ShloMosaic.Lib.IndicatorCount
import Idealize.ShloMosaic.Lib.IdealHost
import Idealize.ShloMosaic.Lib.Pipeline.Value
import Idealize.ShloMosaic.PureOps.Ideal.Laws

noncomputable section

namespace Cert.RefStages

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The counted-frame indicator as the reference's operations spell it. -/
def countedBits (x1 : (⟨S16x2048x1024, .f32⟩ : BufTy).Contents (Elt F)) (x2 : (⟨S16x2048, .f32⟩ : BufTy).Contents (Elt F)) :
    (⟨S16x2048, .i1⟩ : BufTy).Contents (Elt F) :=
  cmpf .une (mulf (uitofp .f32 (cmpf .ogt (subf (broadcastInDim S16x2048 ![] bcast_S_S16x2048 (constant S_ .f32 0x3F800000#32)) (shapeCast _ (extractStridedSlice S16x2048x1 ![0, 0, 0] x1 slices_S16x2048x1024_S16x2048x1_0_0_0) shapeCasts_S16x2048x1_S16x2048)) (broadcastInDim S16x2048 ![] bcast_S_S16x2048 (constant S_ .f32 0x3F8C9F54#32)))) x2) (broadcastInDim S16x2048 ![] bcast_S_S16x2048 (constant S_ .f32 0x00000000#32))

/-- The reference's per-row count: the integer sum of the widened indicator along the frames. -/
def countRef (x1 : (⟨S16x2048x1024, .f32⟩ : BufTy).Contents (Elt F)) (x2 : (⟨S16x2048, .f32⟩ : BufTy).Contents (Elt F)) :
    (⟨S16, .i32⟩ : BufTy).Contents (Elt F) :=
  Host.reduce IntOp.addi (extui 32 (countedBits x1 x2) natLt_1_32) (constantI S_ 32 0#32) reducesTo_S16x2048_S16_d1 h_S_

/-- The reference's per-row sum of alpha. -/
def rowSumRef (x0 : (⟨S16x2048, .f32⟩ : BufTy).Contents (Elt F)) : (⟨S16, .f32⟩ : BufTy).Contents (Elt F) :=
  Host.reduceAdd x0 (constant S_ .f32 0x00000000#32) reducesTo_S16x2048_S16_d1 h_S_

set_option maxRecDepth 65536 in
/-- The reference's result is the shared function of its count, its row sum and the text lengths. -/
theorem result_eq (m : (ℓ : Loc nD τ sig) → Buf (Elt F) ℓ) (c : Dev nD) :
    ValueP.res_main_v53 m c
      = Shared.boundaryLoss (countRef (m ((c.tc : Thread nD τ).loc main_arg1)) (m ((c.tc : Thread nD τ).loc main_arg2)))
          (rowSumRef (m ((c.tc : Thread nD τ).loc main_arg0))) (m ((c.tc : Thread nD τ).loc main_arg3)) := by
  unfold ValueP.res_main_v53 Shared.boundaryLoss countRef rowSumRef countedBits
  rfl

/-! ## The stages at an index, over the extended reals -/

/-- The slice `[:, :, 0:1]` with its unit axis reshaped away reads `logp[r, k, 0]`. -/
theorem blank_apply {α : Type} (x1 : S16x2048x1024.Idx → α) (r : Fin 16) (k : Fin 2048) :
    shapeCast S16x2048 (extractStridedSlice S16x2048x1 ![0, 0, 0] x1 slices_S16x2048x1024_S16x2048x1_0_0_0)
      shapeCasts_S16x2048x1_S16x2048 (ix2 r k) = x1 (ix3 r k 0) := by
  rw [shapeCast_apply _ shapeCasts_S16x2048x1_S16x2048 (ix2 r k) (ix3 r k (0 : Fin 1))
    (by rw [Shape.rowMajor_val_three, Shape.rowMajor_val_two]
        show (r.val * 2048 + k.val) * 1 + 0 = r.val * 2048 + k.val
        omega)]
  exact extractStridedSlice_apply ![0, 0, 0] x1 slices_S16x2048x1024_S16x2048x1_0_0_0 (ix3 r k (0 : Fin 1)) (ix3 r k (0 : Fin 1024))
    (fun a => match a with
      | ⟨0, _⟩ => by show r.val = 0 + r.val; omega
      | ⟨1, _⟩ => by show k.val = 0 + k.val; omega
      | ⟨2, _⟩ => by show (0 : ℕ) = 0 + 0; rfl)

/-- The reference's indicator at frame `k` of row `r` is the counted-frame bit of the specification. -/
theorem countedBits_apply (x1 : S16x2048x1024.Idx → EReal) (x2 : S16x2048.Idx → EReal) (r : Fin 16) (k : Fin 2048) :
    countedBits (F := Ideal) x1 x2 (ix2 r k) = Spec.spike x1 x2 r k := by
  unfold countedBits Spec.spike Spec.trig
  show Ideal.cmp .une ((((Ideal.cmp .ogt (Spec.one - shapeCast S16x2048 (extractStridedSlice S16x2048x1 ![0, 0, 0] x1 slices_S16x2048x1024_S16x2048x1_0_0_0)
      shapeCasts_S16x2048x1_S16x2048 (ix2 r k)) Spec.thr).toNat : ℝ) : EReal) * x2 (ix2 r k)) Spec.zero = _
  rw [blank_apply]
  rfl

/-- The index the reduction along the frames reads at frame `k` of row `r`. -/
theorem lift_eq (h : S16x2048.Reduces [1] S16) (r : Fin 16) (k : Fin 2048) : h.lift (ix1 r) k = ix2 r k := by
  funext a
  match a with
  | ⟨0, _⟩ => exact Fin.ext rfl
  | ⟨1, _⟩ => exact Fin.ext rfl

/-- The reference's count of row `r` is the 32-bit word of the number of counted frames. -/
theorem countRef_apply (x1 : S16x2048x1024.Idx → EReal) (x2 : S16x2048.Idx → EReal) (r : Fin 16) :
    countRef (F := Ideal) x1 x2 (ix1 r) = BitVec.ofNat 32 (Spec.count x1 x2 r) := by
  have h : S16x2048.Reduces [1] S16 := by decide
  unfold countRef
  rw [Host.reduce_eq_fold_single IntOp.addi _ _ reducesTo_S16x2048_S16_d1 h h_S_ (ix1 r)]
  have e : ((extui 32 (countedBits (F := Ideal) x1 x2) natLt_1_32) ∘ h.lift (ix1 r))
      = fun k : Fin 2048 => (Spec.spike x1 x2 r k).setWidth 32 := by
    funext k
    exact (congrArg (fun i => (countedBits (F := Ideal) x1 x2 i).setWidth 32) (lift_eq h r k)).trans
      (congrArg (fun b : BitVec 1 => b.setWidth 32) (countedBits_apply x1 x2 r k))
  rw [e]
  exact IndicatorCount.fold_addi_setWidth_eq_card (fun k => Spec.spike x1 x2 r k) Finset.univ

/-- The reference's sum of row `r` is the initial zero plus the sum of the row. -/
theorem rowSumRef_apply (x0 : S16x2048.Idx → EReal) (r : Fin 16) :
    rowSumRef (F := Ideal) x0 (ix1 r) = Spec.zero + Spec.rowSum x0 r := by
  have h : S16x2048.Reduces [1] S16 := by decide
  unfold rowSumRef Spec.rowSum
  rw [hostReduceAdd_apply, Ideal.hostReduceAdd_single reducesTo_S16x2048_S16_d1 h]
  exact congrArg (fun s : EReal => Spec.zero + s) (Finset.sum_congr rfl fun k _ => congrArg x0 (lift_eq h r k))

end Cert.RefStages

end
-- ==== Proof.KernelPieces.lean ====
/-
  What one grid point leaves in the two output blocks.

  The body keeps two running columns [8, 1]: the count of counted frames and the sum of alpha, one entry per
  row of the block.  At a point whose second grid coordinate is 0 it first stores zeros, reads them back, and
  adds the point's lane sums; at the other points it adds the point's lane sums to what the point before
  left.  Only column 0 of the log-probability slab is read.
-/
import proofs.«130598_j90297392431840_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

/-- Column 0 of a log-probability slab [8, 1024, 128], as the body loads it: shape [8, 1024, 1]. -/
def blankCol (x1 : Vec F S8x1024x128 .f32) : Vec F S8x1024x1 .f32 :=
  View.ld x1 (Rect.unit (s := S8x1024x128) ![0, 0, 0] S8x1024x1.size inb_S8x1024x128_S8x1024x1_0_0_0)

/-- A later point: the count column becomes what it held plus the point's counted frames per row. -/
theorem count_later (c : Dev nD) (i : grid0.Coords) (a2 : Memref sig .tc .vmem S8x1024 .f32) (h2 : a2.IsWhole) (a3 : Memref sig .tc .vmem S8x1024x128 .f32) (h3 : a3.IsWhole) (a4 : Memref sig .tc .vmem S8x1024 .f32) (h4 : a4.IsWhole) (a5 : Memref sig .tc .vmem S8x1 .f32) (h5 : a5.IsWhole) (a6 : Memref sig .tc .vmem S8x1 .f32) (h6 : a6.IsWhole) (hc : ¬cond0_0 i)
    (x0 : Vec F S8x1024 .f32) (x1 : Vec F S8x1024x128 .f32) (x2 : Vec F S8x1024 .f32) (xo3 xo4 : Vec F S8x1 .f32) :
    out0_B_3 c i a2 h2 a3 h3 a4 h4 a5 h5 a6 h6 hc x0 x1 x2 xo3 xo4 = k0_pay3 (blankCol x1) x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  rw [View.canon_unit_zero hz2]
  simp only [View.readAt_eq_ld, h3.read_unread, h4.read_unread, h5.read_unread, View.ld_unit_zero (S := S8x1024) hz2,
    View.ld_unit_zero (S := S8x1) hz2]
  rfl

/-- A later point: the sum column becomes what it held plus the point's lane sums of alpha. -/
theorem sum_later (c : Dev nD) (i : grid0.Coords) (a2 : Memref sig .tc .vmem S8x1024 .f32) (h2 : a2.IsWhole) (a3 : Memref sig .tc .vmem S8x1024x128 .f32) (h3 : a3.IsWhole) (a4 : Memref sig .tc .vmem S8x1024 .f32) (h4 : a4.IsWhole) (a5 : Memref sig .tc .vmem S8x1 .f32) (h5 : a5.IsWhole) (a6 : Memref sig .tc .vmem S8x1 .f32) (h6 : a6.IsWhole) (hc : ¬cond0_0 i)
    (x0 : Vec F S8x1024 .f32) (x1 : Vec F S8x1024x128 .f32) (x2 : Vec F S8x1024 .f32) (xo3 xo4 : Vec F S8x1 .f32) :
    out0_B_4 c i a2 h2 a3 h3 a4 h4 a5 h5 a6 h6 hc x0 x1 x2 xo3 xo4 = k0_pay4 xo4 x0 := by
  unfold out0_B_4
  rw [View.read_writes_eq_canon _ _ _ (cover0_B_4 c i a2 h2 a3 h3 a4 h4 a5 h5 a6 h6 hc x0 x1 x2 xo3 xo4)]
  unfold kernelRun0_B
  dsimp only
  rw [View.canon_unit_zero hz2]
  simp only [View.readAt_eq_ld, h2.read_unread, h6.read_unread, View.ld_unit_zero (S := S8x1024) hz2,
    View.ld_unit_zero (S := S8x1) hz2]

/-- A first point: the count column is the stored zeros plus the point's counted frames per row. -/
theorem count_first (c : Dev nD) (i : grid0.Coords) (a2 : Memref sig .tc .vmem S8x1024 .f32) (h2 : a2.IsWhole) (a3 : Memref sig .tc .vmem S8x1024x128 .f32) (h3 : a3.IsWhole) (a4 : Memref sig .tc .vmem S8x1024 .f32) (h4 : a4.IsWhole) (a5 : Memref sig .tc .vmem S8x1 .f32) (h5 : a5.IsWhole) (a6 : Memref sig .tc .vmem S8x1 .f32) (h6 : a6.IsWhole) (hc : cond0_0 i)
    (x0 : Vec F S8x1024 .f32) (x1 : Vec F S8x1024x128 .f32) (x2 : Vec F S8x1024 .f32) :
    out0_A_3 c i a2 h2 a3 h3 a4 h4 a5 h5 a6 h6 hc x0 x1 x2 = k0_pay3 (blankCol x1) x2 (k0_pay1 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S8x1) hz2, View.readCov_unit_zero (S := S8x1) _ hz2]
  simp only [View.readAt_eq_ld, h3.read_unread, h4.read_unread, View.ld_unit_zero (S := S8x1024) hz2]
  rfl

/-- A first point: the sum column is the stored zeros plus the point's lane sums of alpha. -/
theorem sum_first (c : Dev nD) (i : grid0.Coords) (a2 : Memref sig .tc .vmem S8x1024 .f32) (h2 : a2.IsWhole) (a3 : Memref sig .tc .vmem S8x1024x128 .f32) (h3 : a3.IsWhole) (a4 : Memref sig .tc .vmem S8x1024 .f32) (h4 : a4.IsWhole) (a5 : Memref sig .tc .vmem S8x1 .f32) (h5 : a5.IsWhole) (a6 : Memref sig .tc .vmem S8x1 .f32) (h6 : a6.IsWhole) (hc : cond0_0 i)
    (x0 : Vec F S8x1024 .f32) (x1 : Vec F S8x1024x128 .f32) (x2 : Vec F S8x1024 .f32) :
    out0_A_4 c i a2 h2 a3 h3 a4 h4 a5 h5 a6 h6 hc x0 x1 x2 = k0_pay4 (k0_pay2 (F := F)) x0 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S8x1) hz2, View.readCov_unit_zero (S := S8x1) _ hz2]
  simp only [View.readAt_eq_ld, h2.read_unread, View.ld_unit_zero (S := S8x1024) hz2]

end Cert.KernelIdeal.Pieces

end
-- ==== Proof.KernelBlocks.lean ====
/-
  The blocks the grid points read, and what the two output columns hold after each point.

  The grid is 2 × 2: point `t` handles the 8 rows `8·(t / 2) + p` and the 1024 frames `1024·(t % 2) + l`.
  Its alpha and mask blocks are those rows and frames, its log-probability slab those rows and frames at the
  first 128 classes, of which the body reads class 0.  The two output blocks are indexed by `t / 2` alone, so
  they are carried from a point with `t % 2 = 0` to the next one and written back after it.
-/
import proofs.«130598_j90297392431840_2_alg».proof.Proof.KernelPieces
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The printed index maps at a point, decided over the four points. -/
theorem idx_facts : ∀ t : Fin cfg0.N,
    win0_0.index t (0 : Fin 2) = t.val / 2 ∧ win0_0.index t (1 : Fin 2) = t.val % 2
    ∧ win0_1.index t (0 : Fin 3) = t.val / 2 ∧ win0_1.index t (1 : Fin 3) = t.val % 2 ∧ win0_1.index t (2 : Fin 3) = 0
    ∧ win0_2.index t (0 : Fin 2) = t.val / 2 ∧ win0_2.index t (1 : Fin 2) = t.val % 2
    ∧ win0_3.index t (0 : Fin 2) = t.val / 2 ∧ win0_3.index t (1 : Fin 2) = 0
    ∧ win0_4.index t (0 : Fin 2) = t.val / 2 ∧ win0_4.index t (1 : Fin 2) = 0 :=
  (by decide +kernel : ∀ t : Fin grid0.N, _)

/-- Entry (p, l) of point `t`'s alpha block is alpha at row `8·(t / 2) + p`, frame `1024·(t % 2) + l`. -/
theorem alpha_blk (c : Dev nD) (t : Fin cfg0.N) (p : Fin 8) (l : Fin 1024) (r : Fin 16) (k : Fin 2048)
    (hr : r.val = 8 * (t.val / 2) + p.val) (hk : k.val = 1024 * (t.val % 2) + l.val) :
    (iblk m c 0 t : Vec F S8x1024 .f32) (ix2 p l) = V m c main_arg0 (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 8 + 1 * p.val = r.val; rw [e0, hr]; omega
  | ⟨1, _⟩ => show win0_0.index t (1 : Fin 2) * 1024 + 1 * l.val = k.val; rw [e1, hk]; omega

/-- Entry (p, l) of point `t`'s mask block, likewise. -/
theorem mask_blk (c : Dev nD) (t : Fin cfg0.N) (p : Fin 8) (l : Fin 1024) (r : Fin 16) (k : Fin 2048)
    (hr : r.val = 8 * (t.val / 2) + p.val) (hk : k.val = 1024 * (t.val % 2) + l.val) :
    (iblk m c 2 t : Vec F S8x1024 .f32) (ix2 p l) = V m c main_arg2 (ix2 r k) := by
  obtain ⟨-, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 8 + 1 * p.val = r.val; rw [e0, hr]; omega
  | ⟨1, _⟩ => show win0_2.index t (1 : Fin 2) * 1024 + 1 * l.val = k.val; rw [e1, hk]; omega

/-- Entry (p, l, 0) of column 0 of point `t`'s log-probability slab is the array at that row and frame, class 0. -/
theorem logp_blk (c : Dev nD) (t : Fin cfg0.N) (p : Fin 8) (l : Fin 1024) (r : Fin 16) (k : Fin 2048)
    (hr : r.val = 8 * (t.val / 2) + p.val) (hk : k.val = 1024 * (t.val % 2) + l.val) :
    Pieces.blankCol (iblk m c 1 t : Vec F S8x1024x128 .f32) (ix3 p l (0 : Fin 1)) = V m c main_arg1 (ix3 r k (0 : Fin 1024)) := by
  obtain ⟨-, -, e0, e1, e2, -⟩ := idx_facts t
  unfold Pieces.blankCol iblk
  show V m c main_arg1 _ = V m c main_arg1 _
  congr 1
  funext a
  apply Fin.ext
  match a with
  | ⟨0, _⟩ => show win0_1.index t (0 : Fin 3) * 8 + 1 * (0 + 1 * p.val) = r.val; rw [e0, hr]; omega
  | ⟨1, _⟩ => show win0_1.index t (1 : Fin 3) * 1024 + 1 * (0 + 1 * l.val) = k.val; rw [e1, hk]; omega
  | ⟨2, _⟩ => show win0_1.index t (2 : Fin 3) * 128 + 1 * (0 + 1 * 0) = 0; rw [e2]

/-- After a point with `t % 2 = 0` the count column is the stored zeros plus the point's counted frames. -/
theorem count_first_at (c : Dev nD) (t : Fin cfg0.N) (h0 : t.val % 2 = 0) :
    (outsAt0 m c t.val t.isLt).1 = k0_pay3 (Pieces.blankCol (iblk m c 1 t)) (iblk m c 2 t) (k0_pay1 (F := F)) := by
  rw [outsAt0_A m c t h0]
  exact Pieces.count_first c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)

/-- After such a point the sum column is the stored zeros plus the point's lane sums of alpha. -/
theorem sum_first_at (c : Dev nD) (t : Fin cfg0.N) (h0 : t.val % 2 = 0) :
    (outsAt0 m c t.val t.isLt).2 = k0_pay4 (k0_pay2 (F := F)) (iblk m c 0 t) := by
  rw [outsAt0_A m c t h0]
  exact Pieces.sum_first c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)

/-- After a point with `t % 2 ≠ 0` the count column is what the point before left plus the point's counted frames. -/
theorem count_later_at (c : Dev nD) (t : Fin cfg0.N) (h1 : ¬t.val % 2 = 0) :
    (outsAt0 m c t.val t.isLt).1 = k0_pay3 (Pieces.blankCol (iblk m c 1 t)) (iblk m c 2 t)
      (outsAt0 m c (t.val - 1) (Nat.lt_of_le_of_lt (Nat.sub_le _ _) t.isLt)).1 := by
  rw [outsAt0_B m c t h1]
  exact Pieces.count_later c (grid0.coords t) (ms0_0 t) (hs0_0 t) (ms0_1 t) (hs0_1 t) (ms0_2 t) (hs0_2 t) (ms0_3 t) (hs0_3 t) (ms0_4 t) (hs0_4 t) (fun h => h1 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2

/-- After such a point the sum column is what the point before left plus the point's lane sums of alpha. -/
theorem sum_later_at (c : Dev nD) (t : Fin cfg0.N) (h1 : ¬t.val % 2 = 0) :
    (outsAt0 m c t.val t.isLt).2 = k0_pay4 (outsAt0 m c (t.val - 1) (Nat.lt_of_le_of_lt (Nat.sub_le _ _) t.isLt)).2 (iblk m c 0 t) := by
  rw [outsAt0_B m c t h1]
  exact Pieces.sum_later c (grid0.coords t) (ms0_0 t) (hs0_0 t) (ms0_1 t) (hs0_1 t) (ms0_2 t) (hs0_2 t) (ms0_3 t) (hs0_3 t) (ms0_4 t) (hs0_4 t) (fun h => h1 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2

end Cert.KernelIdeal.Blocks

end
-- ==== Proof.LibIndicatorSum.lean ====
/-
  A count kept in floating point, over the extended reals.

  A sum of 0/1 indicators is the number of the ones: each indicator is a one-bit word widened to 32 bits
  and converted as a signed integer (or the bit converted as an unsigned one), so it is the real 1 or the
  real 0, and a finite sum of them is the cardinality of the set where the bit is set, as a real.

  Rounding such a count to the nearest integer (ties to even) leaves it unchanged, and converting it to a
  signed 32-bit integer (toward zero, clamped) gives the word of that natural number as long as the count
  is below 2^31.  Together with the library's integer count (a fold of integer additions of widened bits is
  the word of the cardinality) this identifies a count accumulated in floats, rounded and converted with
  the same count accumulated in integers.
-/
import Idealize.ShloMosaic.PureOps.Ideal
import Idealize.ShloMosaic.Lib.IndicatorCount

namespace Cert.LibIndicatorSum

open Idealize.ShloMosaic

/-- A one-bit word is the zero bit or the one bit. -/
theorem bit_cases (p : BitVec 1) : p = 0#1 ∨ p = 1#1 := by
  have hl := p.isLt
  rcases Nat.lt_or_ge p.toNat 1 with h | h
  · left; apply BitVec.eq_of_toNat_eq; show p.toNat = 0; omega
  · right; apply BitVec.eq_of_toNat_eq; show p.toNat = 1; omega

/-- A bit widened to 32 bits and read as a signed integer is the bit's natural value. -/
theorem toInt_setWidth_bit (p : BitVec 1) : (p.setWidth 32).toInt = (p.toNat : ℤ) := by
  rcases bit_cases p with rfl | rfl <;> decide

/-- As a real: the signed reading of the widened bit and the unsigned reading of the bit are one number. -/
theorem signed_widened_eq_unsigned (p : BitVec 1) :
    ((((p.setWidth 32).toInt : ℤ) : ℝ) : EReal) = (((p.toNat : ℕ) : ℝ) : EReal) := by
  rw [toInt_setWidth_bit]; norm_cast

/-- Over the extended reals a finite sum of 0/1 indicators — bits read as unsigned integers — is the number
    of the indices whose bit is set. -/
theorem sum_bits_eq_card {ι : Type} (p : ι → BitVec 1) (S : Finset ι) :
    ∑ k ∈ S, ((((p k).toNat : ℕ) : ℝ) : EReal) = (((S.filter fun k => p k = 1#1).card : ℝ) : EReal) := by
  classical
  induction S using Finset.induction_on with
  | empty => simp
  | insert a S ha ih =>
    rw [Finset.sum_insert ha, ih, Finset.filter_insert]
    rcases bit_cases (p a) with h | h
    · have hne : ¬ p a = 1#1 := by rw [h]; decide
      rw [if_neg hne, h]
      simp
    · rw [if_pos h, Finset.card_insert_of_notMem (fun hm => ha (Finset.mem_filter.1 hm).1), h]
      rw [← EReal.coe_add]
      congr 1
      push_cast
      simp [add_comm]

/-- To nearest, ties to even: a natural number is its own rounding. -/
theorem roundHalfEven_natCast (n : ℕ) : Ideal.roundHalfEven (n : ℝ) = (n : ℤ) := by
  unfold Ideal.roundHalfEven
  simp

/-- Rounded to the nearest integer and converted to a signed 32-bit integer, a natural number below 2^31
    (as an extended real) is the 32-bit word of that number. -/
theorem fptosi_roundeven_natCast (n : ℕ) (h : n < 2 ^ 31) :
    Ideal.fptosi 32 (Ideal.liftRound Ideal.roundHalfEven (((n : ℝ)) : EReal)) = BitVec.ofNat 32 n := by
  have e : Ideal.liftRound Ideal.roundHalfEven (((n : ℝ)) : EReal) = (((n : ℤ) : ℝ) : EReal) := by
    show (((Ideal.roundHalfEven (n : ℝ) : ℤ) : ℝ) : EReal) = _
    rw [roundHalfEven_natCast]
  rw [e]
  unfold Ideal.fptosi
  rw [Ideal.toIntClamped_coe]
  have h0 : (0 : ℝ) ≤ ((n : ℤ) : ℝ) := by positivity
  rw [if_pos h0, Int.floor_intCast]
  have hb : max (-((2 ^ (32 - 1) : ℕ) : ℤ)) (min (((2 ^ (32 - 1) : ℕ) : ℤ) - 1) (n : ℤ)) = (n : ℤ) := by
    have : (n : ℤ) < 2 ^ 31 := by exact_mod_cast h
    norm_num
    omega
  rw [hb]
  exact BitVec.ofInt_natCast 32 n

end Cert.LibIndicatorSum
-- ==== Proof.CountMath.lean ====
/-
  The arithmetic that joins the kernel's tiled accumulation to whole-row quantities.

  A row of 2048 frames is visited in two tiles of 1024 lanes: frames `l` and `1024 + l`.  In any commutative
  additive monoid the accumulation `(z + first tile's sum) + second tile's sum` is `z` plus the whole row's
  sum — no finiteness is needed over the extended reals, only associativity.  For the count, each term is a
  bit read as the real 0 or 1, the float zero the accumulation starts from is the real zero, and the whole
  row's sum is the number of counted frames.
-/
import proofs.«130598_j90297392431840_2_alg».proof.Proof.Spec
import proofs.«130598_j90297392431840_2_alg».proof.Proof.LibIndicatorSum
import Idealize.ShloMosaic.PureOps.Ideal.Laws

noncomputable section

namespace Cert.CountMath

open Idealize.ShloMosaic Idealize.ShloMosaic.ValueIdx

/-- The counted-frame bit of a log-probability `a` and a mask value `b`:
    `(1 if 1 - a > thr else 0) · b ≠ 0`. -/
def counted (a b : EReal) : BitVec 1 :=
  Ideal.cmp .one ((((Ideal.cmp .ogt (Spec.one - a) Spec.thr).toNat : ℝ) : EReal) * b) Spec.zero

/-- The specification's bit of frame `k` of row `r` is that bit of the frame's two values. -/
theorem spike_eq (logp : (⟨3, ![16, 2048, 1024]⟩ : Shape).Idx → EReal) (mask : (⟨2, ![16, 2048]⟩ : Shape).Idx → EReal)
    (r : Fin 16) (k : Fin 2048) : Spec.spike logp mask r k = counted (logp (ix3 r k 0)) (mask (ix2 r k)) := rfl

/-- Frame `l` of the first tile, and frame `1024 + l` of the second. -/
def lo (l : Fin 1024) : Fin 2048 := ⟨l.val, by omega⟩
def hi (l : Fin 1024) : Fin 2048 := ⟨1024 + l.val, by omega⟩

/-- The two tiles' sums, accumulated one after the other from `z`, are `z` plus the row's sum. -/
theorem two_tiles {M : Type} [AddCommMonoid M] (z : M) (f : Fin 2048 → M) :
    (z + ∑ l : Fin 1024, f (lo l)) + ∑ l : Fin 1024, f (hi l) = z + ∑ k : Fin 2048, f k := by
  rw [add_assoc]
  congr 1
  exact (Fin.sum_univ_add (a := 1024) (b := 1024) f).symm

/-- The float count of row `r` accumulated over the two tiles from the float zero is the number of counted
    frames of the row, as a real. -/
theorem count_value (logp : (⟨3, ![16, 2048, 1024]⟩ : Shape).Idx → EReal) (mask : (⟨2, ![16, 2048]⟩ : Shape).Idx → EReal)
    (r : Fin 16) :
    (Spec.zero + ∑ l : Fin 1024, (((counted (logp (ix3 r (lo l) 0)) (mask (ix2 r (lo l)))).toNat : ℝ) : EReal))
        + ∑ l : Fin 1024, (((counted (logp (ix3 r (hi l) 0)) (mask (ix2 r (hi l)))).toNat : ℝ) : EReal)
      = (((Spec.count logp mask r : ℕ) : ℝ) : EReal) := by
  rw [two_tiles Spec.zero (fun k => (((counted (logp (ix3 r k 0)) (mask (ix2 r k))).toNat : ℝ) : EReal))]
  rw [show Spec.zero = (0 : EReal) from Ideal.ofBits_zero_f32, zero_add]
  exact LibIndicatorSum.sum_bits_eq_card (fun k : Fin 2048 => counted (logp (ix3 r k 0)) (mask (ix2 r k))) Finset.univ

/-- Rounded and converted to a 32-bit integer, that count is the word of the number of counted frames. -/
theorem count_word (logp : (⟨3, ![16, 2048, 1024]⟩ : Shape).Idx → EReal) (mask : (⟨2, ![16, 2048]⟩ : Shape).Idx → EReal)
    (r : Fin 16) :
    Ideal.fptosi 32 (Ideal.liftRound Ideal.roundHalfEven ((((Spec.count logp mask r : ℕ) : ℝ)) : EReal))
      = BitVec.ofNat 32 (Spec.count logp mask r) :=
  LibIndicatorSum.fptosi_roundeven_natCast _ (Spec.count_lt logp mask r)

/-- The sum of alpha's row accumulated over the two tiles from the float zero is zero plus the row's sum. -/
theorem rowSum_value (alpha : (⟨2, ![16, 2048]⟩ : Shape).Idx → EReal) (r : Fin 16) :
    (Spec.zero + ∑ l : Fin 1024, alpha (ix2 r (lo l))) + ∑ l : Fin 1024, alpha (ix2 r (hi l))
      = Spec.zero + Spec.rowSum alpha r :=
  two_tiles Spec.zero (fun k => alpha (ix2 r k))

end Cert.CountMath

end
-- ==== Proof.KernelPayload.lean ====
/-
  The body's two stored values, read at an entry over the extended reals.

  Entry (p, 0) of the new count column is the old entry plus the sum over the 1024 lanes `l` of the
  counted-frame indicator of (logp[p, l, 0], mask[p, l]); entry (p, 0) of the new sum column is the old entry
  plus the sum over the lanes of alpha[p, l].  The kernel converts its two comparison bits to floats by
  widening them to 32 bits and converting as signed integers; a widened bit read signed is the bit read
  unsigned, so the indicator is the specification's.
-/
import proofs.«130598_j90297392431840_2_alg».proof.Proof.Gen.KernelIdeal.Skeleton
import proofs.«130598_j90297392431840_2_alg».proof.Proof.CountMath
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx
open Cert.CountMath (counted)

/-- The kernel's spelling of the indicator (both bits widened and read signed) is the bit read unsigned. -/
theorem indicator_eq (a b : EReal) :
    (((((Ideal.cmp .one ((((((Ideal.cmp .ogt (Spec.one - a) Spec.thr).setWidth 32).toInt : ℤ) : ℝ) : EReal) * b)
        Spec.zero).setWidth 32).toInt : ℤ) : ℝ) : EReal) = (((counted a b).toNat : ℝ) : EReal) := by
  rw [LibIndicatorSum.signed_widened_eq_unsigned, LibIndicatorSum.signed_widened_eq_unsigned]
  rfl

/-- The index a lane reduction of an [8, 1024] vector reads at lane `l` of row `p`. -/
theorem lift_eq (p : Fin 8) (l : Fin 1024) : reduces_S8x1024_S8.lift (ix1 p) l = ix2 p l := by
  funext a
  match a with
  | ⟨0, _⟩ => exact Fin.ext rfl
  | ⟨1, _⟩ => exact Fin.ext rfl

/-- A lane sum kept as a column: entry (p, 0) is the sum of row `p` over the 1024 lanes. -/
theorem laneSum_apply (v : FVec Ideal S8x1024 .f32) (hφ : FKind.Formats .f32)
    (hacc : (0x00000000#32 : BitVec FTy.f32.bits) = FKind.add.neutral .f32 hφ) (p : Fin 8) :
    shapeCast S8x1 (multiReduction .add [1] S8 v 0x00000000#32 reduces_S8x1024_S8 hφ hacc) shapeCasts_S8_S8x1 (ix2 p (0 : Fin 1))
      = ∑ l : Fin 1024, v (ix2 p l) := by
  refine (shapeCast_apply _ shapeCasts_S8_S8x1 (ix2 p (0 : Fin 1)) (ix1 p)
    (by rw [Shape.rowMajor_val_one, Shape.rowMajor_val_two]; show p.val = p.val * 1 + 0; omega)).trans ?_
  refine (Ideal.multiReduction_add_single v _ reduces_S8x1024_S8 hφ hacc (ix1 p)).trans ?_
  exact Finset.sum_congr rfl fun l _ => congrArg v (lift_eq p l)

/-- The slab's column 0 with its unit axis cast away reads the same entry. -/
theorem column_apply (v3 : S8x1024x1.Idx → EReal) (p : Fin 8) (l : Fin 1024) :
    shapeCast S8x1024 v3 shapeCasts_S8x1024x1_S8x1024 (ix2 p l) = v3 (ix3 p l (0 : Fin 1)) :=
  shapeCast_apply v3 shapeCasts_S8x1024x1_S8x1024 (ix2 p l) (ix3 p l (0 : Fin 1))
    (by rw [Shape.rowMajor_val_three, Shape.rowMajor_val_two]
        show (p.val * 1024 + l.val) * 1 + 0 = p.val * 1024 + l.val
        omega)

/-- The new sum column at (p, 0): the old entry plus the lane sum of alpha's row. -/
theorem sum_apply (v23 : Vec Ideal S8x1 .f32) (v25 : Vec Ideal S8x1024 .f32) (p : Fin 8) :
    k0_pay4 (F := Ideal) v23 v25 (ix2 p (0 : Fin 1)) = v23 (ix2 p (0 : Fin 1)) + ∑ l : Fin 1024, v25 (ix2 p l) := by
  unfold k0_pay4
  refine (addf_apply _ _ _).trans ?_
  exact congrArg₂ (fun x y : EReal => x + y) (congrFun (shapeCast_self v23 _) _) (laneSum_apply v25 _ _ p)

/-- The new count column at (p, 0): the old entry plus the number-valued sum of the indicator over the lanes. -/
theorem count_apply (v3 : Vec Ideal S8x1024x1 .f32) (v11 : Vec Ideal S8x1024 .f32) (v13 : Vec Ideal S8x1 .f32) (p : Fin 8) :
    k0_pay3 (F := Ideal) v3 v11 v13 (ix2 p (0 : Fin 1))
      = v13 (ix2 p (0 : Fin 1)) + ∑ l : Fin 1024, (((counted (v3 (ix3 p l (0 : Fin 1))) (v11 (ix2 p l))).toNat : ℝ) : EReal) := by
  unfold k0_pay3
  refine (addf_apply _ _ _).trans ?_
  refine congrArg₂ (fun x y : EReal => x + y) (congrFun (shapeCast_self v13 _) _) ?_
  refine (laneSum_apply _ _ _ p).trans ?_
  refine Finset.sum_congr rfl fun l _ => ?_
  refine Eq.trans ?_ (indicator_eq (v3 (ix3 p l (0 : Fin 1))) (v11 (ix2 p l)))
  exact congrArg (fun a : EReal => (((((Ideal.cmp .one ((((((Ideal.cmp .ogt (Spec.one - a) Spec.thr).setWidth 32).toInt : ℤ) : ℝ) : EReal) * v11 (ix2 p l))
        Spec.zero).setWidth 32).toInt : ℤ) : ℝ) : EReal)) (column_apply v3 p l)

end Cert.KernelIdeal.Payload

end
-- ==== Proof.KernelFinal.lean ====
/-
  The two result arrays of the kernel, over the extended reals.

  After the second point of a pair the count column of rows `8·(t / 2) + p` holds
  `(0 + tile 0's indicator sum) + tile 1's indicator sum`, the number of counted frames of the row, and the sum
  column `(0 + tile 0's sum of alpha) + tile 1's`, zero plus the row's sum.  The pair's block is written back
  after that point; the two pairs' blocks are rows 0–7 and rows 8–15, so every row of each [16, 1] result array
  is covered and the arrays are these whole-row quantities.
-/
import proofs.«130598_j90297392431840_2_alg».proof.Proof.KernelBlocks
import proofs.«130598_j90297392431840_2_alg».proof.Proof.KernelPayload
import proofs.«130598_j90297392431840_2_alg».proof.Proof.CountMath
import Idealize.ShloMosaic.Lib.Pipeline.Value

set_option maxRecDepth 16384

noncomputable section

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)
open Cert.CountMath (counted lo hi)

variable (m : (ℓ : Loc nD τ sig) → Buf (Elt Ideal) ℓ)

/-- The row of the arrays that row `p` of point `t`'s blocks is. -/
def row (t : Fin cfg0.N) (p : Fin 8) : Fin 16 :=
  ⟨8 * (t.val / 2) + p.val, by have := t.isLt; have hN : cfg0.N = 4 := N_0; have := p.isLt; omega⟩

/-- The three float argument arrays as the region finds them, as arrays of extended reals. -/
abbrev alphaArr (c : Dev nD) : (⟨2, ![16, 2048]⟩ : Shape).Idx → EReal := V m c main_arg0
abbrev logpArr (c : Dev nD) : (⟨3, ![16, 2048, 1024]⟩ : Shape).Idx → EReal := V m c main_arg1
abbrev maskArr (c : Dev nD) : (⟨2, ![16, 2048]⟩ : Shape).Idx → EReal := V m c main_arg2

/-- The count column at (p, 0) after the first point of a pair: zero plus tile 0's indicator sum. -/
theorem count_entry_first (c : Dev nD) (t : Fin cfg0.N) (h0 : t.val % 2 = 0) (p : Fin 8) :
    (outsAt0 m c t.val t.isLt).1 (ix2 p (0 : Fin 1))
      = Spec.zero + ∑ l : Fin 1024,
          (((counted (logpArr m c (ix3 (row t p) (lo l) (0 : Fin 1024))) (maskArr m c (ix2 (row t p) (lo l)))).toNat : ℝ) : EReal) := by
  rw [Blocks.count_first_at m c t h0]
  refine (Payload.count_apply _ _ _ p).trans ?_
  refine congrArg₂ (fun x y : EReal => x + y) rfl (Finset.sum_congr rfl fun l _ => ?_)
  rw [Blocks.logp_blk m c t p l (row t p) (lo l) rfl (by show l.val = 1024 * (t.val % 2) + l.val; omega),
    Blocks.mask_blk m c t p l (row t p) (lo l) rfl (by show l.val = 1024 * (t.val % 2) + l.val; omega)]

/-- The sum column at (p, 0) after the first point of a pair: zero plus tile 0's sum of alpha. -/
theorem sum_entry_first (c : Dev nD) (t : Fin cfg0.N) (h0 : t.val % 2 = 0) (p : Fin 8) :
    (outsAt0 m c t.val t.isLt).2 (ix2 p (0 : Fin 1))
      = Spec.zero + ∑ l : Fin 1024, alphaArr m c (ix2 (row t p) (lo l)) := by
  rw [Blocks.sum_first_at m c t h0]
  refine (Payload.sum_apply _ _ p).trans ?_
  refine congrArg₂ (fun x y : EReal => x + y) rfl (Finset.sum_congr rfl fun l _ => ?_)
  exact Blocks.alpha_blk m c t p l (row t p) (lo l) rfl (by show l.val = 1024 * (t.val % 2) + l.val; omega)

/-- The count column at (p, 0) after the second point of a pair: the number of counted frames of the row. -/
theorem count_entry (c : Dev nD) (t : Fin cfg0.N) (h1 : t.val % 2 = 1) (p : Fin 8) :
    (outsAt0 m c t.val t.isLt).1 (ix2 p (0 : Fin 1))
      = (((Spec.count (logpArr m c) (maskArr m c) (row t p) : ℕ) : ℝ) : EReal) := by
  have hN : cfg0.N = 4 := N_0
  have ht := t.isLt
  rw [Blocks.count_later_at m c t (by omega)]
  refine (Payload.count_apply _ _ _ p).trans ?_
  have hrow : row ⟨t.val - 1, by omega⟩ p = row t p :=
    Fin.ext (by show 8 * ((t.val - 1) / 2) + p.val = 8 * (t.val / 2) + p.val; omega)
  have hprev := count_entry_first m c ⟨t.val - 1, by omega⟩ (by show (t.val - 1) % 2 = 0; omega) p
  rw [hrow] at hprev
  refine Eq.trans (congrArg₂ (fun x y : EReal => x + y) hprev (Finset.sum_congr rfl fun l _ => ?_))
    (CountMath.count_value (logpArr m c) (maskArr m c) (row t p))
  rw [Blocks.logp_blk m c t p l (row t p) (hi l) rfl (by show 1024 + l.val = 1024 * (t.val % 2) + l.val; omega),
    Blocks.mask_blk m c t p l (row t p) (hi l) rfl (by show 1024 + l.val = 1024 * (t.val % 2) + l.val; omega)]

/-- The sum column at (p, 0) after the second point of a pair: zero plus the row's sum of alpha. -/
theorem sum_entry (c : Dev nD) (t : Fin cfg0.N) (h1 : t.val % 2 = 1) (p : Fin 8) :
    (outsAt0 m c t.val t.isLt).2 (ix2 p (0 : Fin 1)) = Spec.zero + Spec.rowSum (alphaArr m c) (row t p) := by
  have hN : cfg0.N = 4 := N_0
  have ht := t.isLt
  rw [Blocks.sum_later_at m c t (by omega)]
  refine (Payload.sum_apply _ _ p).trans ?_
  have hrow : row ⟨t.val - 1, by omega⟩ p = row t p :=
    Fin.ext (by show 8 * ((t.val - 1) / 2) + p.val = 8 * (t.val / 2) + p.val; omega)
  have hprev := sum_entry_first m c ⟨t.val - 1, by omega⟩ (by show (t.val - 1) % 2 = 0; omega) p
  rw [hrow] at hprev
  refine Eq.trans (congrArg₂ (fun x y : EReal => x + y) hprev (Finset.sum_congr rfl fun l _ => ?_))
    (CountMath.rowSum_value (alphaArr m c) (row t p))
  exact Blocks.alpha_blk m c t p l (row t p) (hi l) rfl (by show 1024 + l.val = 1024 * (t.val % 2) + l.val; omega)

/-! ## The arrays -/

/-- The count array [16, 1]: entry (r, 0) is the number of counted frames of row `r`, as a real. -/
def countArr (c : Dev nD) : S16x1.Idx → EReal := fun i =>
  (((Spec.count (logpArr m c) (maskArr m c) ⟨(i 0).val, (i 0).isLt⟩ : ℕ) : ℝ) : EReal)

/-- The sum array [16, 1]: entry (r, 0) is zero plus the sum of alpha's row `r`. -/
def sumArr (c : Dev nD) : S16x1.Idx → EReal := fun i =>
  Spec.zero + Spec.rowSum (alphaArr m c) ⟨(i 0).val, (i 0).isLt⟩

/-- An index of a [8, 1] block is (its row, 0). -/
theorem blockIdx_eq (y : S8x1.Idx) : y = ix2 (⟨(y 0).val, (y 0).isLt⟩ : Fin 8) (0 : Fin 1) := by
  funext a
  match a with
  | ⟨0, _⟩ => exact Fin.ext rfl
  | ⟨1, _⟩ => exact Fin.ext (by have h : (y 1).val < 1 := (y 1).isLt; show (y 1).val = 0; omega)

/-- What the second point of a pair writes back to the count array is that pair's block of `countArr`. -/
theorem count_flushed (c : Dev nD) (t : Fin cfg0.N) (hf : (cfg0.win 3).flush t = true) :
    (dats m 0 c).flushed 3 t = ((cfg0.win 3).blk t).view.read (Elt Ideal) (countArr m c) := by
  have h1 : t.val % 2 = 1 := (flush0_3 t).mp hf
  obtain ⟨-, -, -, -, -, -, -, e0, e1, -⟩ := Blocks.idx_facts t
  show (cfg0.win 3).cut (grid0.coords t) ((dats m 0 c).after 3 t) = _
  rw [after0_3]
  funext y
  show (outsAt0 m c t.val t.isLt).1 y = countArr m c (((cfg0.win 3).blk t).view.emb y)
  have hy : (y 0).val < 8 := (y 0).isLt
  refine ((congrArg (outsAt0 m c t.val t.isLt).1 (blockIdx_eq y)).trans (count_entry m c t h1 ⟨(y 0).val, hy⟩)).trans ?_
  unfold countArr
  congr 3
  apply Fin.ext
  show 8 * (t.val / 2) + (y 0).val = win0_3.index t (0 : Fin 2) * 8 + 1 * (y 0).val
  rw [e0]; omega

/-- What the second point of a pair writes back to the sum array is that pair's block of `sumArr`. -/
theorem sum_flushed (c : Dev nD) (t : Fin cfg0.N) (hf : (cfg0.win 4).flush t = true) :
    (dats m 0 c).flushed 4 t = ((cfg0.win 4).blk t).view.read (Elt Ideal) (sumArr m c) := by
  have h1 : t.val % 2 = 1 := (flush0_4 t).mp hf
  obtain ⟨-, -, -, -, -, -, -, -, -, e0, e1⟩ := Blocks.idx_facts t
  show (cfg0.win 4).cut (grid0.coords t) ((dats m 0 c).after 4 t) = _
  rw [after0_4]
  funext y
  show (outsAt0 m c t.val t.isLt).2 y = sumArr m c (((cfg0.win 4).blk t).view.emb y)
  have hy : (y 0).val < 8 := (y 0).isLt
  refine ((congrArg (outsAt0 m c t.val t.isLt).2 (blockIdx_eq y)).trans (sum_entry m c t h1 ⟨(y 0).val, hy⟩)).trans ?_
  unfold sumArr
  congr 3
  apply Fin.ext
  show 8 * (t.val / 2) + (y 0).val = win0_4.index t (0 : Fin 2) * 8 + 1 * (y 0).val
  rw [e0]; omega

/-- An index of the count array is in point `t`'s block iff each coordinate is in the block's range. -/
theorem mem_count_blk (t : Fin cfg0.N) (i : S16x1.Idx) :
    i ∈ ((cfg0.win 3).blk t).view.set ↔ ∀ a : Fin 2, win0_3.index t a * S8x1.size a ≤ (i a).val ∧ (i a).val < win0_3.index t a * S8x1.size a + S8x1.size a := by
  show i ∈ ((View.whole main_v0_0).slice (win0_3.rect t)).set ↔ _
  rw [View.set_slice_whole, Rect.mem_set_unit]
  exact Iff.rfl

/-- The same for the sum array. -/
theorem mem_sum_blk (t : Fin cfg0.N) (i : S16x1.Idx) :
    i ∈ ((cfg0.win 4).blk t).view.set ↔ ∀ a : Fin 2, win0_4.index t a * S8x1.size a ≤ (i a).val ∧ (i a).val < win0_4.index t a * S8x1.size a + S8x1.size a := by
  show i ∈ ((View.whole main_v0_1).slice (win0_4.rect t)).set ↔ _
  rw [View.set_slice_whole, Rect.mem_set_unit]
  exact Iff.rfl

/-- Row `r` of the count array is written back by the second point of the pair `r / 8`. -/
theorem count_cover (i : S16x1.Idx) :
    ∃ t : Fin cfg0.N, (cfg0.win 3).flush t = true ∧ i ∈ ((cfg0.win 3).blk t).view.set := by
  have hN : cfg0.N = 4 := N_0
  have hi0 : (i 0).val < 16 := (i 0).isLt
  have hi1 : (i 1).val < 1 := (i 1).isLt
  have ht : 2 * ((i 0).val / 8) + 1 < cfg0.N := by omega
  obtain ⟨-, -, -, -, -, -, -, e0, e1, -⟩ := Blocks.idx_facts ⟨2 * ((i 0).val / 8) + 1, ht⟩
  refine ⟨⟨2 * ((i 0).val / 8) + 1, ht⟩, (flush0_3 _).mpr (by show (2 * ((i 0).val / 8) + 1) % 2 = 1; omega), ?_⟩
  rw [mem_count_blk]
  intro a
  match a with
  | ⟨0, _⟩ =>
    show win0_3.index ⟨2 * ((i 0).val / 8) + 1, ht⟩ (0 : Fin 2) * 8 ≤ (i 0).val ∧ (i 0).val < win0_3.index ⟨2 * ((i 0).val / 8) + 1, ht⟩ (0 : Fin 2) * 8 + 8
    rw [e0]
    show (2 * ((i 0).val / 8) + 1) / 2 * 8 ≤ (i 0).val ∧ (i 0).val < (2 * ((i 0).val / 8) + 1) / 2 * 8 + 8
    omega
  | ⟨1, _⟩ =>
    show win0_3.index ⟨2 * ((i 0).val / 8) + 1, ht⟩ (1 : Fin 2) * 1 ≤ (i 1).val ∧ (i 1).val < win0_3.index ⟨2 * ((i 0).val / 8) + 1, ht⟩ (1 : Fin 2) * 1 + 1
    rw [e1]
    omega

/-- The same for the sum array. -/
theorem sum_cover (i : S16x1.Idx) :
    ∃ t : Fin cfg0.N, (cfg0.win 4).flush t = true ∧ i ∈ ((cfg0.win 4).blk t).view.set := by
  have hN : cfg0.N = 4 := N_0
  have hi0 : (i 0).val < 16 := (i 0).isLt
  have hi1 : (i 1).val < 1 := (i 1).isLt
  have ht : 2 * ((i 0).val / 8) + 1 < cfg0.N := by omega
  obtain ⟨-, -, -, -, -, -, -, -, -, e0, e1⟩ := Blocks.idx_facts ⟨2 * ((i 0).val / 8) + 1, ht⟩
  refine ⟨⟨2 * ((i 0).val / 8) + 1, ht⟩, (flush0_4 _).mpr (by show (2 * ((i 0).val / 8) + 1) % 2 = 1; omega), ?_⟩
  rw [mem_sum_blk]
  intro a
  match a with
  | ⟨0, _⟩ =>
    show win0_4.index ⟨2 * ((i 0).val / 8) + 1, ht⟩ (0 : Fin 2) * 8 ≤ (i 0).val ∧ (i 0).val < win0_4.index ⟨2 * ((i 0).val / 8) + 1, ht⟩ (0 : Fin 2) * 8 + 8
    rw [e0]
    show (2 * ((i 0).val / 8) + 1) / 2 * 8 ≤ (i 0).val ∧ (i 0).val < (2 * ((i 0).val / 8) + 1) / 2 * 8 + 8
    omega
  | ⟨1, _⟩ =>
    show win0_4.index ⟨2 * ((i 0).val / 8) + 1, ht⟩ (1 : Fin 2) * 1 ≤ (i 1).val ∧ (i 1).val < win0_4.index ⟨2 * ((i 0).val / 8) + 1, ht⟩ (1 : Fin 2) * 1 + 1
    rw [e1]
    omega

/-- The count array after the region. -/
theorem count_final (c : Dev nD) : (dats m 0 c).arrAt 3 cfg0.N = countArr m c :=
  (dats m 0 c).arrAt_eq_of_cover 3 (countArr m c) (count_flushed m c) count_cover

/-- The sum array after the region. -/
theorem sum_final (c : Dev nD) : (dats m 0 c).arrAt 4 cfg0.N = sumArr m c :=
  (dats m 0 c).arrAt_eq_of_cover 4 (sumArr m c) (sum_flushed m c) sum_cover

end Cert.KernelIdeal.Final

end
-- ==== Proof.KernelResult.lean ====
/-
  The kernel's result.

  After the region the host takes the two [16, 1] result arrays, drops their unit axis, rounds the count to the
  nearest integer and converts it to a 32-bit integer, and from there on applies the computation it shares with the
  reference.  The count array holds natural numbers below 2^31 (as reals), so rounding keeps them and the
  conversion gives their 32-bit words; the sum array holds zero plus each row's sum of alpha.
-/
import proofs.«130598_j90297392431840_2_alg».proof.Proof.KernelFinal
import proofs.«130598_j90297392431840_2_alg».proof.Proof.SharedTail
import Idealize.ShloMosaic.Lib.StableHlo.Run

noncomputable section

namespace Cert.KernelIdeal.Result

open Cert.KernelIdeal Cert.KernelIdeal.Gen
open Idealize.ShloMosaic Idealize.ShloMosaic.TcCoe Idealize.SL.Sem Idealize.ShloMosaic.StableHlo Idealize.ShloMosaic.ValueIdx

section AnyValues

variable {F : FTy → Type} [FloatOps F]

set_option maxRecDepth 65536 in
set_option maxHeartbeats 4000000 in
/-- The host lines after the region, from any buffer contents `W`: the result buffer ends at the shared function of
    the rounded and converted count array, the sum array (both with the unit axis dropped) and the text lengths. -/
theorem tail_eq (W : Valuation τ sig (Elt F)) :
    StableHlo.after (List.flatten [hostOps1, hostOps1_1, hostOps1_2, hostOps1_3, hostOps1_4, hostOps1_5, hostOps1_6, hostOps1_7]) W (Proc.devRef .tc main_v45)
      = Cert.Shared.boundaryLoss
          (fptosi 32 (Host.roundeven (shapeCast S16 (W (Proc.devRef .tc main_v0_0) : (⟨S16x1, .f32⟩ : BufTy).Contents (Elt F)) shapeCasts_S16x1_S16)))
          (shapeCast S16 (W (Proc.devRef .tc main_v0_1) : (⟨S16x1, .f32⟩ : BufTy).Contents (Elt F)) shapeCasts_S16x1_S16)
          (W (Proc.devRef .tc main_arg3)) := by
  simp only [hostOps1, hostOps1_1, hostOps1_2, hostOps1_3, hostOps1_4, hostOps1_5, hostOps1_6, hostOps1_7, List.flatten_cons, List.flatten_nil,
    List.append_nil, List.cons_append, List.nil_append]
  after_results_simp
  unfold Cert.Shared.boundaryLoss
  rfl

/-- A [16, 1] array with its unit axis dropped reads entry (r, 0) at `r`. -/
theorem column_apply {α : Type} (x : S16x1.Idx → α) (r : Fin 16) :
    shapeCast S16 x shapeCasts_S16x1_S16 (ix1 r) = x (ix2 r (0 : Fin 1)) :=
  shapeCast_apply x shapeCasts_S16x1_S16 (ix1 r) (ix2 r (0 : Fin 1))
    (by rw [Shape.rowMajor_val_two, Shape.rowMajor_val_one]; show r.val * 1 + 0 = r.val; omega)

end AnyValues

variable (m : (ℓ : Loc nD τ sig) → Buf (Elt Ideal) ℓ) (ρ : Dev nD → PrngReg)

/-- The kernel's per-row count as the tail receives it: rounded, converted to 32-bit integers. -/
def countVec (c : Dev nD) : (⟨S16, .i32⟩ : BufTy).Contents (Elt Ideal) :=
  fptosi 32 (Host.roundeven (F := Ideal) (φ := .f32) (shapeCast S16 (Final.countArr m c : FVec Ideal S16x1 .f32) shapeCasts_S16x1_S16))

/-- The kernel's per-row sum as the tail receives it. -/
def sumVec (c : Dev nD) : (⟨S16, .f32⟩ : BufTy).Contents (Elt Ideal) :=
  shapeCast S16 (Final.sumArr m c : FVec Ideal S16x1 .f32) shapeCasts_S16x1_S16

/-- Row `r`'s count is the 32-bit word of the number of counted frames. -/
theorem countVec_apply (c : Dev nD) (r : Fin 16) :
    countVec m c (ix1 r) = BitVec.ofNat 32 (Spec.count (Final.logpArr m c) (Final.maskArr m c) r) := by
  unfold countVec
  show Ideal.fptosi 32 (Ideal.liftRound Ideal.roundHalfEven (shapeCast S16 (Final.countArr m c) shapeCasts_S16x1_S16 (ix1 r))) = _
  rw [column_apply]
  exact CountMath.count_word _ _ r

/-- Row `r`'s sum is zero plus the sum of alpha's row. -/
theorem sumVec_apply (c : Dev nD) (r : Fin 16) :
    sumVec m c (ix1 r) = Spec.zero + Spec.rowSum (Final.alphaArr m c) r := by
  unfold sumVec
  rw [column_apply]
  rfl

/-- The result buffer after the host lines, at the region's result arrays. -/
theorem result_value (c : Dev nD) :
    Pipeline.afterTail₀ cfgs (dats m) 0 (V0 m) [hostOps1, hostOps1_1, hostOps1_2, hostOps1_3, hostOps1_4, hostOps1_5, hostOps1_6, hostOps1_7] c main_v45
      = Cert.Shared.boundaryLoss (countVec m c) (sumVec m c) (m ((c.tc : Thread nD τ).loc main_arg3)) := by
  unfold Pipeline.afterTail₀
  refine (tail_eq _).trans ?_
  have e3 : (Pipeline.withArrays (cfgs 0).spec c (V0 m c) (fun w => (dats m 0 c).arrAt w (cfgs 0).N) (Proc.devRef .tc main_v0_0)
      : (⟨S16x1, .f32⟩ : BufTy).Contents (Elt Ideal)) = Final.countArr m c :=
    (Pipeline.withArrays_arr spec0 launch0.win.arr_inj c _ _ 3).trans (Final.count_final m c)
  have e4 : (Pipeline.withArrays (cfgs 0).spec c (V0 m c) (fun w => (dats m 0 c).arrAt w (cfgs 0).N) (Proc.devRef .tc main_v0_1)
      : (⟨S16x1, .f32⟩ : BufTy).Contents (Elt Ideal)) = Final.sumArr m c :=
    (Pipeline.withArrays_arr spec0 launch0.win.arr_inj c _ _ 4).trans (Final.sum_final m c)
  have ea : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  unfold countVec sumVec
  rw [e3, e4, ea]

/-- The kernel's run at the ideal instance: every weakly fair execution terminates with the result buffer at the shared
    function of the counts, the row sums and the text lengths, and the arguments unchanged. -/
theorem run : θ_run defs (onTc (τ := τ) (main (F := Ideal))) ⟨m, fun _ => 0, ρ⟩ fun r => ∀ c : Dev nD,
      r.2.mem ((c.tc : Thread nD τ).loc main_v45)
        = Cert.Shared.boundaryLoss (countVec m c) (sumVec m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v45 (Pipeline.mem_restRefs_of main_v45 (by decide) (by decide))).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.lean ====
/-
  The certificate of a CTC boundary loss kernel against its jnp reference, over the extended reals.

  Both programs compute, for each of 16 rows, the number `n` of frames whose spike value
  `(1 if 1 - logp[r, k, 0] > thr else 0) · mask[r, k]` is not zero and the sum `rs` of alpha's row, and then apply
  one and the same computation to `n`, `rs` and the text lengths (the boundary loss; module SharedTail).

  The kernel visits a row's 2048 frames in two tiles of 1024 lanes and keeps both quantities in floating point:
  per tile it adds the lane sum of the 0/1 indicator (and of alpha) to a running [8, 1] column that the first tile's
  point starts from zero.  Over the extended reals addition is associative and commutative, so the two tiles' sums
  accumulated from zero are the whole row's sums; the indicator sum is the number of counted frames (a natural number
  at most 2048), which rounding to the nearest integer keeps and conversion to a 32-bit integer turns into its word.
  The reference counts with an integer sum of the widened indicator bits — the same word — and sums alpha's row in one
  reduction from zero.  Its two comparisons are spelt with the unordered predicates and its bit-to-float conversion
  is unsigned where the kernel's is signed after widening; on the extended reals nothing is unordered and a widened
  bit read signed is the bit read unsigned.  No step uses finiteness of the inputs.

  The kernel's idealization rewrites nothing, so `preserves` holds trivially; the three frames are the generated
  frame certificates and the reference's run.
-/
import proofs.«130598_j90297392431840_2_alg».proof.Defs
import proofs.«130598_j90297392431840_2_alg».proof.Proof.Gen.Kernel
import proofs.«130598_j90297392431840_2_alg».proof.Proof.Gen.Kernel.Frame
import proofs.«130598_j90297392431840_2_alg».proof.Proof.Gen.KernelIdeal
import proofs.«130598_j90297392431840_2_alg».proof.Proof.Gen.KernelIdeal.Frame
import proofs.«130598_j90297392431840_2_alg».proof.Proof.Gen.ReferenceIdeal
import proofs.«130598_j90297392431840_2_alg».proof.Proof.Gen.Pre_finite_inputs
import proofs.«130598_j90297392431840_2_alg».proof.Proof.RefRunPatched
import proofs.«130598_j90297392431840_2_alg».proof.Proof.RefStages
import proofs.«130598_j90297392431840_2_alg».proof.Proof.KernelResult
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Row by row the kernel's rounded and converted float count is the reference's integer count: both are the 32-bit
    word of the number of counted frames. -/
theorem count_agree (m : (ℓ : Loc Cert.KernelIdeal.nD Cert.KernelIdeal.τ Cert.KernelIdeal.sig) → Buf (Elt Ideal) ℓ) (c : Dev Cert.KernelIdeal.nD) :
    Cert.KernelIdeal.Result.countVec m c
      = Cert.RefStages.countRef (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext j
  obtain ⟨r, rfl⟩ : ∃ r : Fin 16, j = ix1 r := ⟨j 0, eq_ix1 j⟩
  exact (Cert.KernelIdeal.Result.countVec_apply m c r).trans (Cert.RefStages.countRef_apply _ _ r).symm

/-- Row by row the kernel's tiled sum of alpha is the reference's: zero plus the row's sum. -/
theorem sum_agree (m : (ℓ : Loc Cert.KernelIdeal.nD Cert.KernelIdeal.τ Cert.KernelIdeal.sig) → Buf (Elt Ideal) ℓ) (c : Dev Cert.KernelIdeal.nD) :
    Cert.KernelIdeal.Result.sumVec m c = Cert.RefStages.rowSumRef (F := Ideal) (m ((c.tc : Thread Cert.KernelIdeal.nD Cert.KernelIdeal.τ).loc Cert.KernelIdeal.main_arg0)) := by
  funext j
  obtain ⟨r, rfl⟩ : ∃ r : Fin 16, j = ix1 r := ⟨j 0, eq_ix1 j⟩
  exact (Cert.KernelIdeal.Result.sumVec_apply m c r).trans (Cert.RefStages.rowSumRef_apply _ r).symm

/-- From memories that agree on the arguments both programs end with the shared function of equal counts, equal row
    sums and the same text lengths. -/
theorem algebraic : Cert.algebraic_KernelIdeal_ReferenceIdeal := by
  intro m ρ m' ρ' _ hagree
  refine ⟨fun c => Cert.Shared.boundaryLoss (Cert.KernelIdeal.Result.countVec m c) (Cert.KernelIdeal.Result.sumVec m c)
      (m ((c.tc : Thread Cert.KernelIdeal.nD Cert.KernelIdeal.τ).loc Cert.KernelIdeal.main_arg3)), Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.RefStages.result_eq, (hagree c).1, (hagree c).2.1, (hagree c).2.2.1, (hagree c).2.2.2]
  show _ = Cert.Shared.boundaryLoss (Cert.KernelIdeal.Result.countVec m c) (Cert.KernelIdeal.Result.sumVec m c)
    (m ((c.tc : Thread Cert.KernelIdeal.nD Cert.KernelIdeal.τ).loc Cert.KernelIdeal.main_arg3))
  rw [count_agree m c, sum_agree m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
